-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4194304 : Shape := ⟨1, ![4194304]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4194304 : S_.BroadcastsInDim S4194304 (![] : Fin 0 → Fin S4194304.rank)
  reducesTo_S4194304_S_d0 : S4194304.ReducesTo [0] S_

variable [Facts]

def fn {F : FTy → Type} [FloatOps F] (main_arg0 : FVec F S16384x4096 .f32) (main_arg1 : IVec S4194304 32) (main_arg2 : IVec S4194304 32) (main_arg3 : FVec F S4194304 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4194304 .f32 := Host.absf main_arg3
  let main_cst_0 : FVec F S_ .f32 := constant S_ .f32 0x7F800000#32
  let main_v5 : FVec F S4194304 .f32 := broadcastInDim S4194304 ![] bcast_S_S4194304 main_cst_0
  let main_v6 : IVec S4194304 1 := cmpf .olt main_v4 main_v5
  let main_c_1 : IVec S_ 1 := constantI S_ 1 1#1
  let main_v7 : IVec S_ 1 := (fun x v => Host.reduce IntOp.andi x v reducesTo_S4194304_S_d0 h_S_) main_v6 main_c_1
  let main_v8 : IVec S_ 1 := andi main_v3 main_v7
  main_v8
-- ==== Kernel.lean ====
abbrev S16384x4096 : Shape := ⟨2, ![16384, 4096]⟩
abbrev S4194304 : Shape := ⟨1, ![4194304]⟩
abbrev S_ : Shape := ⟨0, ![]⟩
abbrev S4096x4096 : Shape := ⟨2, ![4096, 4096]⟩
abbrev S4194304x1 : Shape := ⟨2, ![4194304, 1]⟩
abbrev S4194304x2 : Shape := ⟨2, ![4194304, 2]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 28
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4194304, .i32⟩
  | .hbm, ⟨2, _⟩ => ⟨S4194304, .i32⟩
  | .hbm, ⟨3, _⟩ => ⟨S4194304, .f32⟩
  | .hbm, ⟨4, _⟩ => ⟨S_, .f32⟩
  | .hbm, ⟨5, _⟩ => ⟨S4096x4096, .f32⟩
  | .hbm, ⟨6, _⟩ => ⟨S_, .i32⟩
  | .hbm, ⟨7, _⟩ => ⟨S4194304, .i32⟩
  | .hbm, ⟨8, _⟩ => ⟨S4194304, .i1⟩
  | .hbm, ⟨9, _⟩ => ⟨S_, .i32⟩
  | .hbm, ⟨10, _⟩ => ⟨S4194304, .i32⟩
  | .hbm, ⟨11, _⟩ => ⟨S4194304, .i32⟩
  | .hbm, ⟨12, _⟩ => ⟨S4194304, .i32⟩
  | .hbm, ⟨13, _⟩ => ⟨S_, .i32⟩
  | .hbm, ⟨14, _⟩ => ⟨S4194304, .i32⟩
  | .hbm, ⟨15, _⟩ => ⟨S4194304, .i1⟩
  | .hbm, ⟨16, _⟩ => ⟨S_, .i32⟩
  | .hbm, ⟨17, _⟩ => ⟨S4194304, .i32⟩
  | .hbm, ⟨18, _⟩ => ⟨S4194304, .i32⟩
  | .hbm, ⟨19, _⟩ => ⟨S4194304, .i32⟩
  | .hbm, ⟨20, _⟩ => ⟨S4194304x1, .i32⟩
  | .hbm, ⟨21, _⟩ => ⟨S4194304x1, .i32⟩
  | .hbm, ⟨22, _⟩ => ⟨S4194304x2, .i32⟩
  | .hbm, ⟨23, _⟩ => ⟨S4096x4096, .f32⟩
  | .hbm, ⟨24, _⟩ => ⟨S4096x4096, .f32⟩
  | .hbm, ⟨25, _⟩ => ⟨S4096x4096, .bf16⟩
  | .hbm, ⟨26, _⟩ => ⟨S16384x4096, .bf16⟩
  | .hbm, ⟨27, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S4096x4096 : S_.BroadcastsInDim S4096x4096 (![] : Fin 0 → Fin S4096x4096.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  transposes_S4096x4096_S4096x4096_1_0 : S4096x4096.Transposes [1, 0] S4096x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  scatter_S4096x4096_S4194304x2_S4194304_n_01_01_1_wf : ScatterDims.WF S4096x4096 S4194304x2 S4194304 [] [0, 1] [0, 1] 1
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x4096.size a
  hwx0_0 : ∀ i : grid0.Coords, EltTy.bits .bf16 = 32 ∨ (Rect.block (s := S16384x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x4096.size a
  hwx0_2 : ∀ i : grid0.Coords, EltTy.bits .f32 = 32 ∨ (Rect.block (s := S16384x4096) S1024x1024.size (cc0_transform_2 i) (hinb0_2 i)).WholeWords (EltTy.packing .f32)

variable [Facts₀]

def scatter_S4096x4096_S4194304x2_S4194304_n_01_01_1 : ScatterDims S4096x4096 S4194304x2 S4194304 where
  updateWindowDims := []
  insertedWindowDims := [0, 1]
  scatterDimsToOperandDims := [0, 1]
  indexVectorDim := 1
  wf := scatter_S4096x4096_S4194304x2_S4194304_n_01_01_1_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v17) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4194304 : Shape := ⟨1, ![4194304]⟩
abbrev S_ : Shape := ⟨0, ![]⟩
abbrev S4096x4096 : Shape := ⟨2, ![4096, 4096]⟩
abbrev S4194304x1 : Shape := ⟨2, ![4194304, 1]⟩
abbrev S4194304x2 : Shape := ⟨2, ![4194304, 2]⟩

abbrev nBuf : Space → Nat
  | .hbm => 26
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4194304, .i32⟩
  | .hbm, ⟨2, _⟩ => ⟨S4194304, .i32⟩
  | .hbm, ⟨3, _⟩ => ⟨S4194304, .f32⟩
  | .hbm, ⟨4, _⟩ => ⟨S_, .f32⟩
  | .hbm, ⟨5, _⟩ => ⟨S4096x4096, .f32⟩
  | .hbm, ⟨6, _⟩ => ⟨S_, .i32⟩
  | .hbm, ⟨7, _⟩ => ⟨S4194304, .i32⟩
  | .hbm, ⟨8, _⟩ => ⟨S4194304, .i1⟩
  | .hbm, ⟨9, _⟩ => ⟨S_, .i32⟩
  | .hbm, ⟨10, _⟩ => ⟨S4194304, .i32⟩
  | .hbm, ⟨11, _⟩ => ⟨S4194304, .i32⟩
  | .hbm, ⟨12, _⟩ => ⟨S4194304, .i32⟩
  | .hbm, ⟨13, _⟩ => ⟨S_, .i32⟩
  | .hbm, ⟨14, _⟩ => ⟨S4194304, .i32⟩
  | .hbm, ⟨15, _⟩ => ⟨S4194304, .i1⟩
  | .hbm, ⟨16, _⟩ => ⟨S_, .i32⟩
  | .hbm, ⟨17, _⟩ => ⟨S4194304, .i32⟩
  | .hbm, ⟨18, _⟩ => ⟨S4194304, .i32⟩
  | .hbm, ⟨19, _⟩ => ⟨S4194304, .i32⟩
  | .hbm, ⟨20, _⟩ => ⟨S4194304x1, .i32⟩
  | .hbm, ⟨21, _⟩ => ⟨S4194304x1, .i32⟩
  | .hbm, ⟨22, _⟩ => ⟨S4194304x2, .i32⟩
  | .hbm, ⟨23, _⟩ => ⟨S4096x4096, .f32⟩
  | .hbm, ⟨24, _⟩ => ⟨S4096x4096, .f32⟩
  | .hbm, ⟨25, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  transposes_S4096x4096_S4096x4096_1_0 : S4096x4096.Transposes [1, 0] S4096x4096
  scatter_S4096x4096_S4194304x2_S4194304_n_01_01_1_wf : ScatterDims.WF S4096x4096 S4194304x2 S4194304 [] [0, 1] [0, 1] 1
  dot_S16384x4096_S4096x4096_S16384x4096_1_0_0_1_n_n_wf : DotDims.WF S16384x4096 S4096x4096 S16384x4096 [1] [0] [0] [1] [] []

variable [Facts₀]

def scatter_S4096x4096_S4194304x2_S4194304_n_01_01_1 : ScatterDims S4096x4096 S4194304x2 S4194304 where
  updateWindowDims := []
  insertedWindowDims := [0, 1]
  scatterDimsToOperandDims := [0, 1]
  indexVectorDim := 1
  wf := scatter_S4096x4096_S4194304x2_S4194304_n_01_01_1_wf
def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.Pieces.lean ====
/-
  What one run of the matmul body leaves behind, as values.

  The body keeps a [1024, 1024] accumulator in scratch memory. At a point where the reduction coordinate k is 0 it
  first clears the accumulator, then adds the product of its two input blocks to it. At a point where k is 1 it adds
  the product of its two input blocks to what the point before left in the accumulator, and then copies the
  accumulator to the output block. Each statement below reads the stores of one such run back as a single function
  of the blocks the run loaded: the update `step acc x w` (the body's one arithmetic payload) applied to the cleared
  block `cleared` (at k = 0) or to the carried accumulator (at k = 1). They hold for any interpretation of the floats.
-/
import proofs.«107080_j85744727097647_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

/-- The zero offsets of a whole-block access. -/
theorem zero_off : (![0, 0] : Fin 2 → Nat) = fun _ => 0 := funext fun a => by fin_cases a <;> rfl

/-- The cleared accumulator block: the store of the first branch. -/
abbrev cleared : FVec F S1024x1024 .f32 := k0_pay1 (F := F)

/-- One accumulation step: the accumulator block plus the product of an input block [1024, 2048] and a weight
    block [2048, 1024]. -/
abbrev step (acc : Vec F S1024x1024 .f32) (x : Vec F S1024x2048 .bf16) (w : Vec F S2048x1024 .bf16) : FVec F S1024x1024 .f32 :=
  k0_pay2 acc x w

/-- At a point with k = 0 the accumulator ends holding one step from the cleared block: the clearing store is read
    back by the load that follows it, and the second store, which covers the whole buffer, is what remains. -/
theorem scratch_first (c : Dev nD) (i : grid0.Coords) (a3 : Memref sig .tc .vmem S1024x2048 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 : Vec F S1024x2048 .bf16) (x1 : Vec F S2048x1024 .bf16) :
    sout0_A_0 c i a3 h3 a4 h4 a5 h5 a6 h6 hc0 hc1 x0 x1 = step (cleared (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) zero_off, View.readCov_unit_zero (S := S1024x1024) _ zero_off]
  simp only [View.readAt_eq_ld, h3.read_unread, h4.read_unread, View.ld_unit_zero (S := S1024x2048) zero_off,
    View.ld_unit_zero (S := S2048x1024) zero_off]

/-- At a point with k = 1 the accumulator ends holding one step from what the point before left in it. -/
theorem scratch_last (c : Dev nD) (i : grid0.Coords) (a3 : Memref sig .tc .vmem S1024x2048 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 : Vec F S1024x2048 .bf16) (x1 : Vec F S2048x1024 .bf16) (acc : Vec F S1024x1024 .f32) :
    sout0_B_0 c i a3 h3 a4 h4 a5 h5 a6 h6 hc0 hc1 x0 x1 acc = step acc x0 x1 := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero (S := S1024x1024) zero_off]
  simp only [View.readAt_eq_ld, h3.read_unread, h4.read_unread, h6.read_unread, View.ld_unit_zero (S := S1024x2048) zero_off,
    View.ld_unit_zero (S := S2048x1024) zero_off, View.ld_unit_zero (S := S1024x1024) zero_off]

/-- At a point with k = 1 the output block ends holding the same value: the accumulator, just updated, is loaded
    whole and stored whole into the output block. -/
theorem out_last (c : Dev nD) (i : grid0.Coords) (a3 : Memref sig .tc .vmem S1024x2048 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 : Vec F S1024x2048 .bf16) (x1 : Vec F S2048x1024 .bf16) (acc : Vec F S1024x1024 .f32) :
    out0_B_2 c i a3 h3 a4 h4 a5 h5 a6 h6 hc0 hc1 x0 x1 acc = step acc x0 x1 := by
  unfold out0_B_2
  rw [View.read_writes_eq_canon _ _ _ (cover0_B_2 c i a3 h3 a4 h4 a5 h5 a6 h6 hc0 hc1 x0 x1 acc)]
  unfold kernelRun0_B
  dsimp only
  sl_unfold_words
  rw [View.canon_unit_zero (S := S1024x1024) zero_off, View.readCov_unit_zero (S := S1024x1024) _ zero_off]
  simp only [View.readAt_eq_ld, h3.read_unread, h4.read_unread, h6.read_unread, View.ld_unit_zero (S := S1024x2048) zero_off,
    View.ld_unit_zero (S := S2048x1024) zero_off, View.ld_unit_zero (S := S1024x1024) zero_off]

end Cert.KernelIdeal.Body

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Payload.lean ====
/-
  The body's arithmetic, entry by entry, over the extended reals.

  The cleared block is zero at every entry. One accumulation step adds to the accumulator's entry (p, q) the inner
  product of row p of the [1024, 2048] input block with column q of the [2048, 1024] weight block: the on-chip
  matrix product is taken into a zero accumulator, so it contributes the plain sum of 2048 products and nothing
  else, and a change of float format is the identity on the extended reals.
-/
import proofs.«107080_j85744727097647_1_alg».proof.Proof.Gen.KernelIdeal.Skeleton
import proofs.«107080_j85744727097647_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Arith

open Cert.KernelIdeal Cert.KernelIdeal.Gen Idealize.ShloMosaic Idealize.ShloMosaic.ValueIdx

/-- The contraction record of the body's product is the plain [1024, 2048] × [2048, 1024] one. -/
theorem dims_plain : dot_S1024x2048_S2048x1024_S1024x1024_1_0_0_1_n_n = DotDims.plain 1024 2048 1024 := rfl

/-- Every entry of the cleared block is zero. -/
theorem cleared_apply (p q : Fin 1024) : k0_pay1 (F := Ideal) (ix2 p q) = 0 := by
  unfold k0_pay1
  simp only [shapeCast_self]
  exact Ideal.ofBits_zero_f32

/-- One step at entry (p, q): the accumulator's entry plus the sum over the block's 2048 features k of
    x(p, k) · w(k, q). -/
theorem step_apply (acc : FVec Ideal S1024x1024 .f32) (x : FVec Ideal S1024x2048 .bf16) (w : FVec Ideal S2048x1024 .bf16)
    (p q : Fin 1024) :
    k0_pay2 (F := Ideal) acc x w (ix2 p q) = acc (ix2 p q) + ∑ k : Fin 2048, x (ix2 p k) * w (ix2 k q) := by
  unfold k0_pay2
  simp only [shapeCast_self]
  exact congrArg (acc (ix2 p q) + ·)
    (Cert.PlainDot.matmul_zero_apply dot_S1024x2048_S2048x1024_S1024x1024_1_0_0_1_n_n dims_plain none x w p q)

/-- Two steps from the cleared block, at entry (p, q): the first block pair's 2048 products added into zero, then the
    second block pair's 2048 products. -/
theorem two_steps_apply (x0 x1 : FVec Ideal S1024x2048 .bf16) (w0 w1 : FVec Ideal S2048x1024 .bf16) (p q : Fin 1024) :
    k0_pay2 (F := Ideal) (k0_pay2 (F := Ideal) (k0_pay1 (F := Ideal)) x0 w0) x1 w1 (ix2 p q)
      = (0 + ∑ k : Fin 2048, x0 (ix2 p k) * w0 (ix2 k q)) + ∑ k : Fin 2048, x1 (ix2 p k) * w1 (ix2 k q) := by
  rw [step_apply, step_apply, cleared_apply]

end Cert.KernelIdeal.Arith

end
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.Spec.lean ====
/-
  The layer both programs compute, as one function of two arrays over the extended reals, and the one law of sums
  that joins their two spellings.

  With `a` the [16384, 4096] input and `b` the [4096, 4096] transposed dense weight, the entry (n, o) of the result
  is the inner product of row n of `a` with column o of `b`, a sum of 4096 products. One program takes the sum in one
  go; the other takes the first 2048 terms into a cleared accumulator and then adds the last 2048 terms. Addition of
  extended reals is commutative and associative (the only thing that fails at the infinities is distributivity and
  cancellation, which are not used), so the two agree for all values, finite or not.
-/
import Idealize.ShloMosaic.Lib.ValueIdx
import Idealize.ShloMosaic.PureOps.Ideal
import proofs.«107080_j85744727097647_1_alg».proof.Proof.LibBlockSums

noncomputable section

open scoped BigOperators

namespace Cert.Expander

open Idealize.ShloMosaic Idealize.ShloMosaic.ValueIdx

/-- The shape of the input and of the result: 16384 rows of 4096 entries. -/
abbrev SX : Shape := ⟨2, ![16384, 4096]⟩
/-- The shape of the transposed dense weight: row k, column o holds the weight from input feature k to output feature o. -/
abbrev SW : Shape := ⟨2, ![4096, 4096]⟩

/-- The dense layer: entry (n, o) is the sum over the 4096 input features k of a(n, k) · b(k, o). -/
def dense (a : SX.Idx → EReal) (b : SW.Idx → EReal) : SX.Idx → EReal :=
  fun i => ∑ k : Fin 4096, a (ix2 (i 0) k) * b (ix2 k (i 1))

theorem dense_apply (a : SX.Idx → EReal) (b : SW.Idx → EReal) (n : Fin 16384) (o : Fin 4096) :
    dense a b (ix2 n o) = ∑ k : Fin 4096, a (ix2 n k) * b (ix2 k o) := rfl

/-- Feature `k` of half `h` (the first or the last 2048 features) is below 4096. -/
theorem half_lt (h : Fin 2) (k : Fin 2048) : h.val * 2048 + k.val < 4096 := by
  have := h.isLt; have := k.isLt; omega

/-- The feature index of position `k` in half `h`. -/
abbrev feat (h : Fin 2) (k : Fin 2048) : Fin 4096 := ⟨h.val * 2048 + k.val, half_lt h k⟩

/-- A sum of 4096 terms is the first 2048 terms added into zero, plus the last 2048 terms: the order in which the
    accumulating program takes them. Only commutativity and associativity of addition are used. -/
theorem sum_two_halves {M : Type*} [AddCommMonoid M] (f : Fin 4096 → M) :
    (0 + ∑ k : Fin 2048, f (feat 0 k)) + ∑ k : Fin 2048, f (feat 1 k) = ∑ k : Fin 4096, f k := by
  rw [zero_add, Cert.BlockSums.sum_blocks 2 2048 f, Fin.sum_univ_two]

end Cert.Expander

end
-- ==== Proof.Blocks.lean ====
/-
  From the grid's points to the whole result array, over the extended reals.

  The grid has 16 × 4 × 2 points, numbered t = (i · 4 + j) · 2 + k: i picks a block of 1024 rows of the input,
  j a block of 1024 columns of the transposed weight, and k one half (2048) of the 4096 input features. At point
  t the body sees rows 1024·i … of the input restricted to features 2048·k …, and features 2048·k … of the weight
  restricted to columns 1024·j …. The output block (i, j) is written back only after the point with k = 1, and by
  then the accumulator holds the k = 0 products added into zero, plus the k = 1 products: by the law of
  `Spec.lean` that is the full inner product over all 4096 features. The 64 blocks written back tile the
  [16384, 4096] result, so the result array ends holding the dense layer of the two arrays the region was given.
-/
import proofs.«107080_j85744727097647_1_alg».proof.Proof.Gen.KernelIdeal.Value
import proofs.«107080_j85744727097647_1_alg».proof.Proof.Pieces
import proofs.«107080_j85744727097647_1_alg».proof.Proof.Payload
import proofs.«107080_j85744727097647_1_alg».proof.Proof.Spec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open scoped BigOperators

namespace Cert.KernelIdeal.Layer

open Cert.KernelIdeal Cert.KernelIdeal.Gen Idealize.ShloMosaic.ValueIdx

variable (m : (ℓ : Loc nD τ sig) → Buf (Elt Ideal) ℓ) (ρ : Dev nD → PrngReg)

/-- The input as the region finds it (the array window 0 stages). -/
abbrev xin (c : Dev nD) : S16384x4096.Idx → EReal := V m c main_v17
/-- The transposed weight as the region finds it (the array window 1 stages). -/
abbrev wT (c : Dev nD) : S4096x4096.Idx → EReal := V m c main_v16

/-- Which block each window is on at point t: the row block t / 8, the column block (t / 2) mod 4, the half t mod 2. -/
theorem block_of_point : ∀ t : Fin cfg0.N,
    win0_0.index t (0 : Fin 2) = t.val / 8 ∧ win0_0.index t (1 : Fin 2) = t.val % 2
    ∧ win0_1.index t (0 : Fin 2) = t.val % 2 ∧ win0_1.index t (1 : Fin 2) = t.val / 2 % 4
    ∧ win0_2.index t (0 : Fin 2) = t.val / 8 ∧ win0_2.index t (1 : Fin 2) = t.val / 2 % 4 :=
  (by decide +kernel : ∀ t : Fin grid0.N, _)

/-- A read of window 0's block at point t from ANY array: entry (p, k) of the block is the array's entry at row
    (t / 8) · 1024 + p, feature (t mod 2) · 2048 + k. -/
theorem x_read (A : S16384x4096.Idx → EReal) (t : Fin cfg0.N) (p : Fin 1024) (k : Fin 2048) (n : Fin 16384) (f : Fin 4096)
    (hn : n.val = t.val / 8 * 1024 + p.val) (hf : f.val = t.val % 2 * 2048 + k.val) :
    (((cfg0.win 0).blk t).view.read (Elt Ideal) A : Vec Ideal S1024x2048 .bf16) (ix2 p k) = A (ix2 n f) := by
  obtain ⟨e0, e1, -⟩ := block_of_point t
  rw [View.read_apply]
  show A _ = A _
  refine congrArg A ?_
  funext a
  apply Fin.ext
  match a with
  | ⟨0, _⟩ => show win0_0.index t (0 : Fin 2) * 1024 + 1 * p.val = n.val; rw [e0, hn]; omega
  | ⟨1, _⟩ => show win0_0.index t (1 : Fin 2) * 2048 + 1 * k.val = f.val; rw [e1, hf]; omega

/-- A read of window 1's block at point t from ANY array: entry (k, q) of the block is the array's entry at feature
    (t mod 2) · 2048 + k, column ((t / 2) mod 4) · 1024 + q. -/
theorem w_read (B : S4096x4096.Idx → EReal) (t : Fin cfg0.N) (k : Fin 2048) (q : Fin 1024) (f : Fin 4096) (o : Fin 4096)
    (hf : f.val = t.val % 2 * 2048 + k.val) (ho : o.val = t.val / 2 % 4 * 1024 + q.val) :
    (((cfg0.win 1).blk t).view.read (Elt Ideal) B : Vec Ideal S2048x1024 .bf16) (ix2 k q) = B (ix2 f o) := by
  obtain ⟨-, -, e2, e3, -⟩ := block_of_point t
  rw [View.read_apply]
  show B _ = B _
  refine congrArg B ?_
  funext a
  apply Fin.ext
  match a with
  | ⟨0, _⟩ => show win0_1.index t (0 : Fin 2) * 2048 + 1 * k.val = f.val; rw [e2, hf]; omega
  | ⟨1, _⟩ => show win0_1.index t (1 : Fin 2) * 1024 + 1 * q.val = o.val; rw [e3, ho]; omega

/-- The input block at point t, entry (p, k), is the input at row (t / 8) · 1024 + p, feature (t mod 2) · 2048 + k. -/
theorem x_block (c : Dev nD) (t : Fin cfg0.N) (p : Fin 1024) (k : Fin 2048) (n : Fin 16384) (f : Fin 4096)
    (hn : n.val = t.val / 8 * 1024 + p.val) (hf : f.val = t.val % 2 * 2048 + k.val) :
    (iblk m c 0 t : Vec Ideal S1024x2048 .bf16) (ix2 p k) = xin m c (ix2 n f) := by
  unfold iblk
  exact x_read (V m c main_v17) t p k n f hn hf

/-- The weight block at point t, entry (k, q), is the transposed weight at feature (t mod 2) · 2048 + k, column
    ((t / 2) mod 4) · 1024 + q. -/
theorem w_block (c : Dev nD) (t : Fin cfg0.N) (k : Fin 2048) (q : Fin 1024) (f : Fin 4096) (o : Fin 4096)
    (hf : f.val = t.val % 2 * 2048 + k.val) (ho : o.val = t.val / 2 % 4 * 1024 + q.val) :
    (iblk m c 1 t : Vec Ideal S2048x1024 .bf16) (ix2 k q) = wT m c (ix2 f o) := by
  unfold iblk
  exact w_read (V m c main_v16) t k q f o hf ho

/-- After a point with k = 0 the accumulator holds one step from the cleared block. -/
theorem acc_after_first (c : Dev nD) (t : Fin cfg0.N) (h0 : t.val % 2 = 0) (h1 : ¬t.val % 2 = 1) :
    (outsAt0 m c t.val t.isLt).2 = Body.step (Body.cleared (F := Ideal)) (iblk m c 0 t) (iblk m c 1 t) :=
  by
  rw [outsAt0_A m c t h0 h1]
  dsimp only
  exact Body.scratch_first (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- After a point with k = 1 the output block holds one step from what the point before left in the accumulator. -/
theorem out_after_last (c : Dev nD) (t : Fin cfg0.N) (h0 : ¬t.val % 2 = 0) (h1 : t.val % 2 = 1) :
    (outsAt0 m c t.val t.isLt).1
      = Body.step (outsAt0 m c (t.val - 1) (Nat.lt_of_le_of_lt (Nat.sub_le _ _) t.isLt)).2 (iblk m c 0 t) (iblk m c 1 t) :=
  by
  rw [outsAt0_B m c t h0 h1]
  dsimp only
  exact Body.out_last (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- The point before t. -/
abbrev before (t : Fin cfg0.N) : Fin cfg0.N := ⟨t.val - 1, Nat.lt_of_le_of_lt (Nat.sub_le _ _) t.isLt⟩

/-- So after a point t with k = 1 the output block is two steps from the cleared block: the blocks of the point
    before (k = 0), then the blocks of t. -/
theorem out_two_steps (c : Dev nD) (t : Fin cfg0.N) (h1 : t.val % 2 = 1) :
    (outsAt0 m c t.val t.isLt).1
      = Body.step (Body.step (Body.cleared (F := Ideal)) (iblk m c 0 (before t)) (iblk m c 1 (before t))) (iblk m c 0 t) (iblk m c 1 t) := by
  have hb0 : (before t).val % 2 = 0 := by show (t.val - 1) % 2 = 0; omega
  have hb1 : ¬(before t).val % 2 = 1 := by show ¬(t.val - 1) % 2 = 1; omega
  rw [out_after_last m c t (by omega) h1]
  exact congrArg (fun a => Body.step a (iblk m c 0 t) (iblk m c 1 t)) (acc_after_first m c (before t) hb0 hb1)

/-- The entry (p, q) of the output block after a point t with k = 1 is the dense layer's entry at row
    (t / 8) · 1024 + p and column ((t / 2) mod 4) · 1024 + q: the two halves of the inner product, taken in the
    accumulator's order, are the whole of it. -/
theorem out_entry (c : Dev nD) (t : Fin cfg0.N) (h1 : t.val % 2 = 1) (y : S1024x1024.Idx) (i : S16384x4096.Idx)
    (hr : (i 0).val = t.val / 8 * 1024 + (y 0).val) (hc : (i 1).val = t.val / 2 % 4 * 1024 + (y 1).val) :
    ((outsAt0 m c t.val t.isLt).1 : Vec Ideal S1024x1024 .f32) y = Cert.Expander.dense (xin m c) (wT m c) i := by
  obtain ⟨p, q, rfl⟩ : ∃ (p q : Fin 1024), y = ix2 p q := ⟨y 0, y 1, eq_ix2 y⟩
  obtain ⟨n, o, rfl⟩ : ∃ (n : Fin 16384) (o : Fin 4096), i = ix2 n o := ⟨i 0, i 1, eq_ix2 i⟩
  have hr' : n.val = t.val / 8 * 1024 + p.val := hr
  have hc' : o.val = t.val / 2 % 4 * 1024 + q.val := hc
  have hbv : (before t).val = t.val - 1 := rfl
  rw [out_two_steps m c t h1]
  refine (Arith.two_steps_apply (iblk m c 0 (before t)) (iblk m c 0 t) (iblk m c 1 (before t)) (iblk m c 1 t) p q).trans ?_
  rw [Cert.Expander.dense_apply, ← Cert.Expander.sum_two_halves]
  refine congrArg₂ (· + ·) (congrArg (0 + ·) (Finset.sum_congr rfl fun k _ => ?_)) (Finset.sum_congr rfl fun k _ => ?_)
  · exact congrArg₂ (· * ·)
      (x_block m c (before t) p k n (Cert.Expander.feat 0 k) (by rw [hbv, hr']; omega) (by rw [hbv]; show 0 * 2048 + k.val = _; omega))
      (w_block m c (before t) k q (Cert.Expander.feat 0 k) o (by rw [hbv]; show 0 * 2048 + k.val = _; omega) (by rw [hbv, hc']; omega))
  · exact congrArg₂ (· * ·)
      (x_block m c t p k n (Cert.Expander.feat 1 k) hr' (by show 1 * 2048 + k.val = _; omega))
      (w_block m c t k q (Cert.Expander.feat 1 k) o (by show 1 * 2048 + k.val = _; omega) hc')

/-- What a point writes back, when it writes back, is its block of the dense layer. -/
theorem flushed_eq (c : Dev nD) (t : Fin cfg0.N) (hf : (cfg0.win 2).flush t = true) :
    (dats m 0 c).flushed 2 t = ((cfg0.win 2).blk t).view.read (Elt Ideal) (Cert.Expander.dense (xin m c) (wT m c)) := by
  have h1 : t.val % 2 = 1 := (flush0_2 t).mp hf
  obtain ⟨-, -, -, -, e4, e5⟩ := block_of_point t
  rw [Value.flushed2]
  funext y
  show ((outsAt0 m c t.val t.isLt).1 : Vec Ideal S1024x1024 .f32) y
    = Cert.Expander.dense (xin m c) (wT m c) (((cfg0.win 2).blk t).view.emb y)
  refine out_entry m c t h1 y _ ?_ ?_
  · show win0_2.index t (0 : Fin 2) * 1024 + 1 * (y 0).val = _; rw [e4]; omega
  · show win0_2.index t (1 : Fin 2) * 1024 + 1 * (y 1).val = _; rw [e5]; omega

/-- An index of the result is in point t's block iff each coordinate is in the block's range on its axis. -/
theorem mem_block (t : Fin cfg0.N) (i : S16384x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v18).slice (win0_2.rect t)).set ↔ _
  rw [View.set_slice_whole, Rect.mem_set_unit]
  exact Iff.rfl

/-- Every entry (n, o) of the result lies in the block written back after the point with i = n / 1024,
    j = o / 1024, k = 1. -/
theorem cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hN : cfg0.N = 128 := N_0
  let t : Fin cfg0.N := ⟨(i 0).val / 1024 * 8 + (i 1).val / 1024 * 2 + 1, by rw [hN]; omega⟩
  have htv : t.val = (i 0).val / 1024 * 8 + (i 1).val / 1024 * 2 + 1 := rfl
  obtain ⟨-, -, -, -, e4, e5⟩ := block_of_point t
  refine ⟨t, (flush0_2 t).mpr (by rw [htv]; omega), ?_⟩
  rw [mem_block]
  intro a
  match a with
  | ⟨0, _⟩ =>
    show win0_2.index t (0 : Fin 2) * 1024 ≤ (i 0).val ∧ (i 0).val < win0_2.index t (0 : Fin 2) * 1024 + 1024
    rw [e4, htv]; omega
  | ⟨1, _⟩ =>
    show win0_2.index t (1 : Fin 2) * 1024 ≤ (i 1).val ∧ (i 1).val < win0_2.index t (1 : Fin 2) * 1024 + 1024
    rw [e5, htv]; omega

/-- The result array after the region: the dense layer of the two arrays the region was given. -/
theorem final (c : Dev nD) : (dats m 0 c).arrAt 2 cfg0.N = Cert.Expander.dense (xin m c) (wT m c) :=
  (dats m 0 c).arrAt_eq_of_cover 2 (Cert.Expander.dense (xin m c) (wT m c)) (flushed_eq m c) cover

/-- Every weakly fair execution of the program ends with the result array at the dense layer of the arrays the
    region was given, and the arguments unchanged. -/
theorem run : θ_run defs (onTc (τ := τ) (main (F := Ideal))) ⟨m, fun _ => 0, ρ⟩ fun r => ∀ c : Dev nD,
      r.2.mem ((c : Thread nD τ).loc main_v18) = Cert.Expander.dense (xin m c) (wT m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Layer

end
-- ==== Proof.HostSide.lean ====
/-
  The two arrays the region is given, and the reference's result, in terms of the arguments.

  Before the region the program builds the dense [4096, 4096] weight by adding each of the 4194304 values into
  the entry its (row, column) pair names (negative indices wrapped by 4096 first), transposes it, and converts it
  and the input to bf16. Over the extended reals a change of float format is the identity, so the region is given
  the input itself and exactly the transposed dense weight that the reference builds with the same operations.
  The reference then takes one matrix product of the input with that weight, which entry by entry is the dense
  layer of `Spec.lean`.
-/
import proofs.«107080_j85744727097647_1_alg».proof.Proof.Gen.KernelIdeal.Frame
import proofs.«107080_j85744727097647_1_alg».proof.Proof.Gen.ReferenceIdeal.Read
import proofs.«107080_j85744727097647_1_alg».proof.Proof.Spec
import Idealize.ShloMosaic.Lib.StableHlo.Run
import Idealize.ShloMosaic.Lib.ValueIdx

noncomputable section

open Idealize.ShloMosaic Idealize.ShloMosaic.TcCoe Idealize.SL.Sem Idealize.ShloMosaic.StableHlo
open scoped BigOperators

namespace Cert.KernelIdeal.Host

open Cert.KernelIdeal Cert.KernelIdeal.Gen

variable (m : (ℓ : Loc nD τ sig) → Buf (Elt Ideal) ℓ)

/-- The region is given the input itself: its conversion to bf16 is the identity on the extended reals. -/
theorem input_eq (c : Dev nD) :
    (V m c main_v17 : S16384x4096.Idx → EReal) = m ((c : Thread nD τ).loc main_arg0) := by
  dsimp only [V, hostOps0]
  after_results
  rfl

set_option maxHeartbeats 2000000 in
/-- The region is given the transposed dense weight, built from the index and value arguments by the same
    operations as the reference's (its stage `%15`), the final conversion to bf16 being the identity. -/
theorem weight_eq (c : Dev nD) :
    (V m c main_v16 : S4096x4096.Idx → EReal)
      = Cert.ReferenceIdeal.Read.val_main_v15 (F := Ideal) (m ((c : Thread nD τ).loc main_arg1))
          (m ((c : Thread nD τ).loc main_arg2)) (m ((c : Thread nD τ).loc main_arg3)) := by
  dsimp only [V, hostOps0]
  after_results_simp
  rfl

end Cert.KernelIdeal.Host

namespace Cert.ReferenceIdeal.Layer

open Cert.ReferenceIdeal Cert.ReferenceIdeal.Gen Cert.ReferenceIdeal.Read Idealize.ShloMosaic.ValueIdx

/-- The reference's result is the dense layer of the input and the transposed dense weight: its matrix product
    at entry (n, o) is the sum over the 4096 features k of input(n, k) · weight(k, o). -/
theorem result_eq (x0 : (⟨S16384x4096, .f32⟩ : BufTy).Contents (Elt Ideal)) (x1 x2 : (⟨S4194304, .i32⟩ : BufTy).Contents (Elt Ideal))
    (x3 : (⟨S4194304, .f32⟩ : BufTy).Contents (Elt Ideal)) :
    val_main_v16 (F := Ideal) x0 x1 x2 x3 = Cert.Expander.dense x0 (val_main_v15 (F := Ideal) x1 x2 x3) := by
  funext i
  obtain ⟨n, o, rfl⟩ : ∃ (n : Fin 16384) (o : Fin 4096), i = ix2 n o := ⟨i 0, i 1, eq_ix2 i⟩
  rw [val_main_v16_apply, Cert.Expander.dense_apply]
  refine Finset.sum_congr rfl fun k _ => ?_
  have el : lidx_main_v16 (ix2 n o) k = ix2 n k := funext fun a => Fin.ext (by
    match a with
    | ⟨0, _⟩ => rfl
    | ⟨1, _⟩ => rfl)
  have er : ridx_main_v16 (ix2 n o) k = ix2 k o := funext fun a => Fin.ext (by
    match a with
    | ⟨0, _⟩ => rfl
    | ⟨1, _⟩ => rfl)
  rw [el, er]

end Cert.ReferenceIdeal.Layer

end
-- ==== Proof.lean ====
/-
  The layer out = x · Wᵀ, with W the dense [4096, 4096] weight summed from coordinate triplets: the tiled kernel
  against the plain reference, over the extended reals.

  Both programs build the same transposed dense weight from the index and value arguments with the same
  operations (`Proof/HostSide.lean`), and a change of float format is the identity on the extended reals, so both
  multiply the same two arrays. The reference takes each inner product over the 4096 input features in one sum.
  The kernel walks a 16 × 4 × 2 grid of tiles, and for every 1024 × 1024 tile of the result takes the first 2048
  features into a cleared accumulator and then adds the last 2048 (`Proof/Pieces.lean`, `Proof/Payload.lean`,
  `Proof/Blocks.lean`). A sum of 4096 extended reals is the sum of its two halves whatever the values are
  (`Proof/Spec.lean`), so the two results agree entry by entry; finiteness of the inputs is never needed.
  The idealized kernel is the printed kernel's own text read over the extended reals (no operation was rewritten).
-/
import proofs.«107080_j85744727097647_1_alg».proof.Defs
import proofs.«107080_j85744727097647_1_alg».proof.Proof.Gen.Kernel
import proofs.«107080_j85744727097647_1_alg».proof.Proof.Gen.Kernel.Frame
import proofs.«107080_j85744727097647_1_alg».proof.Proof.Gen.KernelIdeal
import proofs.«107080_j85744727097647_1_alg».proof.Proof.Gen.KernelIdeal.Frame
import proofs.«107080_j85744727097647_1_alg».proof.Proof.Gen.KernelIdeal.Value
import proofs.«107080_j85744727097647_1_alg».proof.Proof.Gen.ReferenceIdeal
import proofs.«107080_j85744727097647_1_alg».proof.Proof.Gen.ReferenceIdeal.Run
import proofs.«107080_j85744727097647_1_alg».proof.Proof.Gen.ReferenceIdeal.Read
import proofs.«107080_j85744727097647_1_alg».proof.Proof.Gen.Pre_finite_inputs
import proofs.«107080_j85744727097647_1_alg».proof.Proof.Blocks
import proofs.«107080_j85744727097647_1_alg».proof.Proof.HostSide
import Idealize.ShloMosaic.Adequacy
import Idealize.ShloMosaic.Init

noncomputable section

namespace Cert.Proof

open Idealize.ShloMosaic Idealize.SL.Sem

/-- The printed kernel runs to the end without a fault and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result dropped, is its frame. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From arguments that agree, the kernel's result array ends at the dense layer of the input and the transposed
    dense weight, and the reference's matrix product is that same dense layer of the same two arrays. -/
theorem algebraic : Cert.algebraic_KernelIdeal_ReferenceIdeal := by
  intro m ρ m' ρ' _ hagree
  refine ⟨fun c => Cert.Expander.dense (Cert.KernelIdeal.Layer.xin m c) (Cert.KernelIdeal.Layer.wT m c),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Layer.result_eq,
    (hagree c).1, (hagree c).2.1, (hagree c).2.2.1, (hagree c).2.2.2]
  show _ = Cert.Expander.dense (Cert.KernelIdeal.Gen.V m c Cert.KernelIdeal.main_v17 : Cert.KernelIdeal.S16384x4096.Idx → EReal)
    (Cert.KernelIdeal.Gen.V m c Cert.KernelIdeal.main_v16 : Cert.KernelIdeal.S4096x4096.Idx → EReal)
  rw [Cert.KernelIdeal.Host.input_eq, Cert.KernelIdeal.Host.weight_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
